-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S4096x128 .f32) (main_arg2 : FVec F S4096x4096 .f32) (main_arg3 : FVec F S4096x4096 .f32) (main_arg4 : FVec F S128x128 .f32) (main_arg5 : FVec F S128 .f32) (main_arg6 : FVec F S128x128 .f32) (main_arg7 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S4096x128, .f32⟩
  | .hbm, ⟨11, _⟩ => ⟨S4096x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S4096x128, .bf16⟩
  | .local _ .vmem, ⟨15, _⟩ => ⟨S4096x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v28 : Index := Scalar.indexCast v3
  let c0_14 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S256x4096_S256x4096_0_0 : ∀ a, (![0, 0] : Fin 2 → Nat) a + S256x4096.size a ≤ S256x4096.size a
  h_S256x4096 : 0 < S256x4096.numel
  natLt_1_32 : 1 < 32
  reduces_S256x4096_S256 : S256x4096.Reduces [1] S256
  shapeCasts_S256_S256x1 : S256.ShapeCasts S256x1
  inb_S128x128_S128x128_0_0 : ∀ a, (![0, 0] : Fin 2 → Nat) a + S128x128.size a ≤ S128x128.size a
  h_S128x128 : 0 < S128x128.numel
  h_S256x128 : 0 < S256x128.numel
  broadcasts_S256x1_S256x128 : S256x1.Broadcasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  dot_S256x4096_S4096x128_S256x128_1_0_0_1_n_n_wf : DotDims.WF S256x4096 S4096x128 S256x128 [1] [0] [0] [1] [] []
  dot_S256x128_S128x128_S256x128_1_1_0_0_n_n_wf : DotDims.WF S256x128 S128x128 S256x128 [1] [1] [0] [0] [] []
  hrank0 : 0 < grid0.rank
  k0_off1_inb : ∀ i : grid0.Coords, ∀ a, (k0_off1 i) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S4096x128.size a
  hwx0_8 : ∀ i : grid0.Coords, EltTy.bits .f32 = 32 ∨ (Rect.block (s := S4096x128) S256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S4096x128.size a
  hwx0_9 : ∀ i : grid0.Coords, EltTy.bits .f32 = 32 ∨ (Rect.block (s := S4096x128) S256x128.size (cc0_transform_9 i) (hinb0_9 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S256x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S4096x4096, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .i1⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S4096x128, .f32⟩
  | .hbm, ⟨26, _⟩ => ⟨S4096x128, .i1⟩
  | .hbm, ⟨27, _⟩ => ⟨S4096x128, .f32⟩
  | .hbm, ⟨28, _⟩ => ⟨S_, .f32⟩
  | .hbm, ⟨29, _⟩ => ⟨S4096x128, .f32⟩
  | .hbm, ⟨30, _⟩ => ⟨S4096x128, .f32⟩
  | .hbm, ⟨31, _⟩ => ⟨S128x128, .f32⟩
  | .hbm, ⟨32, _⟩ => ⟨S4096x128, .f32⟩
  | .hbm, ⟨33, _⟩ => ⟨S4096x128, .f32⟩
  | .hbm, ⟨34, _⟩ => ⟨S1x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x4096, .f32⟩
  | .hbm, ⟨39, _⟩ => ⟨S4096x4096, .i1⟩
  | .hbm, ⟨40, _⟩ => ⟨S4096x4096, .f32⟩
  | .hbm, ⟨41, _⟩ => ⟨S4096x128, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .i1⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S4096x128, .f32⟩
  | .hbm, ⟨55, _⟩ => ⟨S4096x128, .i1⟩
  | .hbm, ⟨56, _⟩ => ⟨S4096x128, .f32⟩
  | .hbm, ⟨57, _⟩ => ⟨S_, .f32⟩
  | .hbm, ⟨58, _⟩ => ⟨S4096x128, .f32⟩
  | .hbm, ⟨59, _⟩ => ⟨S4096x128, .f32⟩
  | .hbm, ⟨60, _⟩ => ⟨S128x128, .f32⟩
  | .hbm, ⟨61, _⟩ => ⟨S4096x128, .f32⟩
  | .hbm, ⟨62, _⟩ => ⟨S4096x128, .f32⟩
  | .hbm, ⟨63, _⟩ => ⟨S1x128, .f32⟩
  | .hbm, ⟨64, _⟩ => ⟨S4096x128, .f32⟩
  | .hbm, ⟨65, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_call0_v0 : Ref sig .tc := ⟨.hbm, 26, rfl⟩
abbrev main_v13 : Ref sig .tc := ⟨.hbm, 27, rfl⟩
abbrev main_call1_cst : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_call2_v0 : Ref sig .tc := ⟨.hbm, 55, rfl⟩
abbrev main_v34 : Ref sig .tc := ⟨.hbm, 56, rfl⟩
abbrev main_call3_cst : Ref sig .tc := ⟨.hbm, 57, rfl⟩
abbrev main_call3_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S4096x128 : S_.BroadcastsInDim S4096x128 (![] : Fin 0 → Fin S4096x128.rank)
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.Pieces.lean ====
/-
  What one grid point leaves behind, as values.

  At the first grid point the body copies the two feature arrays (changed to a narrower float format) into its two
  scratch buffers and then computes both output blocks, reading the copies back; at every later point it only reads the
  scratch buffers, which still hold what the first point stored. Each output block is ONE store of the block's payload
  (Payload.lean), whose loads are: the point's slab of a selection matrix, a scratch buffer (the other direction's
  source features), a weight matrix, the 256 rows of the target features that start at row 256 · (point), and a bias
  row. The lemmas below read the stores the body's symbolic run found back as those payloads.
-/
import proofs.«111334_g7610682049159_cont_9to1_m_1368_24_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The 256 rows of a 4096 × 128 array that the body reads at grid coordinates i: rows 256 · i₀ to 256 · i₀ + 255. -/
def rowsAt (i : grid0.Coords) (x : Vec F S4096x128 .f32) : Vec F S256x128 .f32 :=
  View.ld x (Rect.unit (s := S4096x128) (k0_off1 i) S256x128.size (k0_off1_inb i))

theorem sA0 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S4096x128 .bf16) (harg11 : arg11.IsWhole) (arg12 : Memref sig .tc .vmem S4096x128 .bf16) (harg12 : arg12.IsWhole) (hc0 : cond0_0 i) (x0 : Vec F S256x4096 .f32) (x1 : Vec F S256x4096 .f32) (x2 : Vec F S4096x128 .f32) (x3 : Vec F S4096x128 .f32) (x4 : Vec F S128x128 .f32) (x5 : Vec F S128x128 .f32) (x6 : Vec F S1x128 .f32) (x7 : Vec F S1x128 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay1 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S256x4096) hz, View.ld_unit_zero (S := S4096x128) hz, View.ld_unit_zero (S := S128x128) hz,
    View.ld_unit_zero (S := S1x128) hz]
  try first | rfl | (unfold rowsAt k0_off1; rfl)

theorem sA1 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S4096x128 .bf16) (harg11 : arg11.IsWhole) (arg12 : Memref sig .tc .vmem S4096x128 .bf16) (harg12 : arg12.IsWhole) (hc0 : cond0_0 i) (x0 : Vec F S256x4096 .f32) (x1 : Vec F S256x4096 .f32) (x2 : Vec F S4096x128 .f32) (x3 : Vec F S4096x128 .f32) (x4 : Vec F S128x128 .f32) (x5 : Vec F S128x128 .f32) (x6 : Vec F S1x128 .f32) (x7 : Vec F S1x128 .f32) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S256x4096) hz, View.ld_unit_zero (S := S4096x128) hz, View.ld_unit_zero (S := S128x128) hz,
    View.ld_unit_zero (S := S1x128) hz]
  try first | rfl | (unfold rowsAt k0_off1; rfl)

theorem oA8 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S4096x128 .bf16) (harg11 : arg11.IsWhole) (arg12 : Memref sig .tc .vmem S4096x128 .bf16) (harg12 : arg12.IsWhole) (hc0 : cond0_0 i) (x0 : Vec F S256x4096 .f32) (x1 : Vec F S256x4096 .f32) (x2 : Vec F S4096x128 .f32) (x3 : Vec F S4096x128 .f32) (x4 : Vec F S128x128 .f32) (x5 : Vec F S128x128 .f32) (x6 : Vec F S1x128 .f32) (x7 : Vec F S1x128 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay3 x0 (k0_pay2 x3) x4 (rowsAt i x2) x6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz]
  rw [View.readCov_unit_zero (S := S4096x128) _ hz]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S256x4096) hz, View.ld_unit_zero (S := S4096x128) hz, View.ld_unit_zero (S := S128x128) hz,
    View.ld_unit_zero (S := S1x128) hz]
  try first | rfl | (unfold rowsAt k0_off1; rfl)

theorem oA9 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S4096x128 .bf16) (harg11 : arg11.IsWhole) (arg12 : Memref sig .tc .vmem S4096x128 .bf16) (harg12 : arg12.IsWhole) (hc0 : cond0_0 i) (x0 : Vec F S256x4096 .f32) (x1 : Vec F S256x4096 .f32) (x2 : Vec F S4096x128 .f32) (x3 : Vec F S4096x128 .f32) (x4 : Vec F S128x128 .f32) (x5 : Vec F S128x128 .f32) (x6 : Vec F S1x128 .f32) (x7 : Vec F S1x128 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x1 (k0_pay1 x2) x5 (rowsAt i x3) x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz]
  rw [View.readCov_unit_zero (S := S4096x128) _ hz]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S256x4096) hz, View.ld_unit_zero (S := S4096x128) hz, View.ld_unit_zero (S := S128x128) hz,
    View.ld_unit_zero (S := S1x128) hz]
  try first | rfl | (unfold rowsAt k0_off1; rfl)

theorem oB8 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S4096x128 .bf16) (harg11 : arg11.IsWhole) (arg12 : Memref sig .tc .vmem S4096x128 .bf16) (harg12 : arg12.IsWhole) (hc0 : ¬cond0_0 i) (x0 : Vec F S256x4096 .f32) (x1 : Vec F S256x4096 .f32) (x2 : Vec F S4096x128 .f32) (x3 : Vec F S4096x128 .f32) (x4 : Vec F S128x128 .f32) (x5 : Vec F S128x128 .f32) (x6 : Vec F S1x128 .f32) (x7 : Vec F S1x128 .f32) (xs0 : Vec F S4096x128 .bf16) (xs1 : Vec F S4096x128 .bf16) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = k0_pay3 x0 xs1 x4 (rowsAt i x2) x6 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S256x4096) hz, View.ld_unit_zero (S := S4096x128) hz, View.ld_unit_zero (S := S128x128) hz,
    View.ld_unit_zero (S := S1x128) hz]
  try first | rfl | (unfold rowsAt k0_off1; rfl)

theorem oB9 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S4096x128 .bf16) (harg11 : arg11.IsWhole) (arg12 : Memref sig .tc .vmem S4096x128 .bf16) (harg12 : arg12.IsWhole) (hc0 : ¬cond0_0 i) (x0 : Vec F S256x4096 .f32) (x1 : Vec F S256x4096 .f32) (x2 : Vec F S4096x128 .f32) (x3 : Vec F S4096x128 .f32) (x4 : Vec F S128x128 .f32) (x5 : Vec F S128x128 .f32) (x6 : Vec F S1x128 .f32) (x7 : Vec F S1x128 .f32) (xs0 : Vec F S4096x128 .bf16) (xs1 : Vec F S4096x128 .bf16) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = k0_pay4 x1 xs0 x5 (rowsAt i x3) x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg11.read_unread, harg12.read_unread,
    View.ld_unit_zero (S := S256x4096) hz, View.ld_unit_zero (S := S4096x128) hz, View.ld_unit_zero (S := S128x128) hz,
    View.ld_unit_zero (S := S1x128) hz]
  try first | rfl | (unfold rowsAt k0_off1; rfl)

end Cert.KernelIdeal.Pieces

end
-- ==== Proof.Spec.lean ====
/-
  One direction of mean message passing, as arithmetic on the extended reals.

  A target row selects the sources whose entry of the selection matrix is positive (the indicator is 1 on them and 0
  elsewhere), sums their feature rows, and passes the sum through "divide by the number selected (by 1 when none is),
  clamp below at 0, multiply by the weight matrix". Clamping at 0 and a linear map both commute with multiplication by a
  NONNEGATIVE real, so the division may be done once per row AFTER the linear map instead of on each of the features
  before it: for reals a_k, w_k and a real r ≥ 0,   ∑_k max(a_k · r, 0) · w_k = (∑_k max(a_k, 0) · w_k) · r.
  With no source selected both forms are 0 (the first multiplies by 0, the second clamps a row of zeros).
  Distributing the factor over the sum needs every summand finite, which is where finiteness of the features and of the
  weights enters; the entries of the selection matrix may be anything.
-/
import Idealize.ShloMosaic.PureOps.Ideal.Laws
import Idealize.ShloMosaic.Lib.ValueIdx

noncomputable section

open scoped BigOperators

namespace Cert.MeanMsg

open Idealize.ShloMosaic Idealize.ShloMosaic.ValueIdx

/-- The selection indicator of one matrix entry: 1 where the entry is positive, else 0. -/
def ind (x : EReal) : EReal := if 0 < x then 1 else 0

/-- The indicator is a real number (0 or 1). -/
theorem ind_real (x : EReal) : ∃ r : ℝ, ind x = (r : EReal) := by
  unfold ind
  split
  · exact ⟨1, EReal.coe_one.symm⟩
  · exact ⟨0, EReal.coe_zero.symm⟩

/-- The comparison "entry > 0", widened to 32 bits and read as a signed integer, is the indicator. -/
theorem mask_signed (x : EReal) : ((((Ideal.cmp .ogt x 0).setWidth 32).toInt : ℝ) : EReal) = ind x := by
  show ((((BitVec.ofBool (decide ((0 : EReal) < x))).setWidth 32).toInt : ℝ) : EReal) = _
  unfold ind
  by_cases h : (0 : EReal) < x
  · rw [if_pos h, decide_eq_true h]
    have e : ((BitVec.ofBool true).setWidth 32).toInt = 1 := by decide
    rw [e]; norm_num
  · rw [if_neg h, decide_eq_false h]
    have e : ((BitVec.ofBool false).setWidth 32).toInt = 0 := by decide
    rw [e]; norm_num

/-- The same comparison read as an unsigned one-bit integer is the indicator too. -/
theorem mask_unsigned (x : EReal) : (((Ideal.cmp .ogt x 0).toNat : ℝ) : EReal) = ind x := by
  show (((BitVec.ofBool (decide ((0 : EReal) < x))).toNat : ℝ) : EReal) = _
  unfold ind
  by_cases h : (0 : EReal) < x
  · rw [if_pos h, decide_eq_true h]
    have e : (BitVec.ofBool true).toNat = 1 := by decide
    rw [e]; norm_num
  · rw [if_neg h, decide_eq_false h]
    have e : (BitVec.ofBool false).toNat = 0 := by decide
    rw [e]; norm_num

/-- A select on the comparison "c > 0" is the if-then-else on 0 < c. -/
theorem select_pos {α : Type} (c : EReal) (a b : α) :
    Scalar.select (Ideal.cmp .ogt c 0) a b = if 0 < c then a else b := by
  show Scalar.select (BitVec.ofBool (decide ((0 : EReal) < c))) a b = _
  by_cases h : (0 : EReal) < c
  · rw [if_pos h, decide_eq_true h]; exact select_one a b
  · rw [if_neg h, decide_eq_false h]; exact select_zero a b

/-- The pattern of the float 1.0 denotes 1. -/
theorem ofBits_one_f32 : Ideal.ofBits .f32 0x3F800000#32 = 1 := IdealRules.sign_bit.ideal_onePat .f32

/-- A finite sum of reals, taken in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The embedding of the reals is monotone, so it carries a maximum to the maximum. -/
theorem coe_max (x y : ℝ) : ((max x y : ℝ) : EReal) = max (x : EReal) (y : EReal) :=
  EReal.coe_strictMono.monotone.map_max

variable {S K : ℕ}

/-- One output entry with the per-row factor applied AFTER the linear map: target entry, plus
    (∑_k max(∑_s μ_s · x_{s,k}, 0) · w_k) · r, plus bias, where r = 1 / max(count, 1) if the count ∑_s μ_s is positive and 0
    otherwise. -/
def rowVal (t b : EReal) (μ : Fin S → EReal) (x : Fin S → Fin K → EReal) (w : Fin K → EReal) : EReal :=
  t + (∑ k, max (∑ s, μ s * x s k) 0 * w k) * (if 0 < ∑ s, μ s then Ideal.div 1 (max (∑ s, μ s) 1) else 0) + b

/-- The same entry with the mean taken BEFORE clamping and the linear map: each summed feature is divided by
    max(count, 1) where the count is positive and replaced by 0 where it is not (the count here is 0 + ∑_s μ_s, a
    sum started from zero). -/
def rowRef (t b : EReal) (μ : Fin S → EReal) (x : Fin S → Fin K → EReal) (w : Fin K → EReal) : EReal :=
  t + (∑ k, max (if 0 < 0 + ∑ s, μ s then Ideal.div (∑ s, μ s * x s k) (max (0 + ∑ s, μ s) 1) else 0) 0 * w k) + b

/-- Over the reals: clamping at 0 commutes with a nonnegative factor, and the factor leaves the sum. -/
theorem real_scale (a w : Fin K → ℝ) (r : ℝ) (hr : 0 ≤ r) :
    ∑ k, max (a k * r) 0 * w k = (∑ k, max (a k) 0 * w k) * (1 * r) := by
  rw [Finset.sum_mul]
  refine Finset.sum_congr rfl fun k _ => ?_
  have e : max (a k * r) 0 = max (a k) 0 * r := by rw [max_mul_of_nonneg _ _ hr, zero_mul]
  rw [e]; ring

/-- THE LAW: with real indicators, features and weights, the two forms of an entry are equal. -/
theorem rowRef_eq (t b : EReal) (μ : Fin S → EReal) (x : Fin S → Fin K → EReal) (w : Fin K → EReal)
    (hμ : ∀ s, ∃ r : ℝ, μ s = (r : EReal)) (hx : ∀ s k, ∃ r : ℝ, x s k = (r : EReal)) (hw : ∀ k, ∃ r : ℝ, w k = (r : EReal)) :
    rowRef t b μ x w = rowVal t b μ x w := by
  choose μr hμr using hμ
  choose xr hxr using hx
  choose wr hwr using hw
  have hc : ∑ s, μ s = ((∑ s, μr s : ℝ) : EReal) :=
    (Finset.sum_congr rfl fun s _ => hμr s).trans (coe_sum _ _)
  have ha : ∀ k, ∑ s, μ s * x s k = ((∑ s, μr s * xr s k : ℝ) : EReal) := fun k =>
    (Finset.sum_congr rfl fun s _ => by rw [hμr s, hxr s k, ← EReal.coe_mul]).trans (coe_sum _ _)
  unfold rowRef rowVal
  refine congrArg (fun z => t + z + b) ?_
  simp only [zero_add, hc, ha, hwr]
  generalize (∑ s, μr s : ℝ) = c
  generalize hA : (fun k => (∑ s, μr s * xr s k : ℝ)) = a
  have hA' : ∀ k, (∑ s, μr s * xr s k : ℝ) = a k := fun k => congrFun hA k
  simp only [hA']
  have hm : max (c : EReal) 1 = ((max c 1 : ℝ) : EReal) := by rw [coe_max, EReal.coe_one]
  have hm0 : (max c 1 : ℝ) ≠ 0 := ne_of_gt (lt_of_lt_of_le one_pos (le_max_right c 1))
  rw [hm]
  by_cases hpos : (0 : EReal) < (c : EReal)
  · simp only [if_pos hpos, Ideal.div_coe hm0]
    have hr : (0 : ℝ) ≤ 1 / max c 1 := by positivity
    have e1 : ∀ k, max ((a k : EReal) * ((1 / max c 1 : ℝ) : EReal)) 0 * (wr k : EReal)
        = ((max (a k * (1 / max c 1)) 0 * wr k : ℝ) : EReal) := fun k => by
      rw [← EReal.coe_mul, ← EReal.coe_zero, ← coe_max, ← EReal.coe_mul]
    have e2 : ∀ k, max (a k : EReal) 0 * (wr k : EReal) = ((max (a k) 0 * wr k : ℝ) : EReal) := fun k => by
      rw [← EReal.coe_zero, ← coe_max, ← EReal.coe_mul]
    simp only [e1, e2]
    rw [coe_sum, coe_sum, ← EReal.coe_one, ← EReal.coe_mul, ← EReal.coe_mul, real_scale a wr _ hr]
  · simp only [if_neg hpos, max_self, zero_mul, Finset.sum_const_zero, mul_zero]

/-- Two entries of the first form are equal when their five ingredients are. -/
theorem rowVal_congr {t t' b b' : EReal} {μ μ' : Fin S → EReal} {x x' : Fin S → Fin K → EReal} {w w' : Fin K → EReal}
    (ht : t = t') (hb : b = b') (hμ : ∀ s, μ s = μ' s) (hx : ∀ s k, x s k = x' s k) (hw : ∀ k, w k = w' k) :
    rowVal t b μ x w = rowVal t' b' μ' x' w' := by
  obtain rfl : μ = μ' := funext hμ
  obtain rfl : x = x' := funext fun s => funext fun k => hx s k
  obtain rfl : w = w' := funext hw
  rw [ht, hb]

/-- Entry (p, q) of one direction's result over whole arrays: targets and sources 4096 × 128, the selection matrix
    4096 × 4096 (row p selects the sources of target p), the weights 128 × 128 (row q of the weights gives output
    feature q), the bias of length 128. -/
def outAt (tgt src : (⟨2, ![4096, 128]⟩ : Shape).Idx → EReal) (mat : (⟨2, ![4096, 4096]⟩ : Shape).Idx → EReal)
    (W : (⟨2, ![128, 128]⟩ : Shape).Idx → EReal) (b : (⟨1, ![128]⟩ : Shape).Idx → EReal) (p : Fin 4096) (q : Fin 128) : EReal :=
  rowVal (tgt (ix2 p q)) (b (ix1 q)) (fun s : Fin 4096 => ind (mat (ix2 p s)))
    (fun (s : Fin 4096) (k : Fin 128) => src (ix2 s k)) (fun k : Fin 128 => W (ix2 q k))

/-- One direction's whole result array. -/
def outArr (tgt src : (⟨2, ![4096, 128]⟩ : Shape).Idx → EReal) (mat : (⟨2, ![4096, 4096]⟩ : Shape).Idx → EReal)
    (W : (⟨2, ![128, 128]⟩ : Shape).Idx → EReal) (b : (⟨1, ![128]⟩ : Shape).Idx → EReal) :
    (⟨2, ![4096, 128]⟩ : Shape).Idx → EReal :=
  fun i => outAt tgt src mat W b (i 0) (i 1)

theorem outArr_ix2 (tgt src : (⟨2, ![4096, 128]⟩ : Shape).Idx → EReal) (mat : (⟨2, ![4096, 4096]⟩ : Shape).Idx → EReal)
    (W : (⟨2, ![128, 128]⟩ : Shape).Idx → EReal) (b : (⟨1, ![128]⟩ : Shape).Idx → EReal) (p : Fin 4096) (q : Fin 128) :
    outArr tgt src mat W b (ix2 p q) = outAt tgt src mat W b p q := rfl

end Cert.MeanMsg

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.Payload.lean ====
/-
  The body's arithmetic for one output block, read at an entry.

  For a block of 256 target rows the body forms the 0/1 selection matrix of the block's 256 × 4096 slab of the
  selection matrix, the per-row count of selected sources (a sum along the slab's rows, kept as a 256 × 1 column),
  the summed source features (the 0/1 matrix times the 4096 × 128 source features), clamps them below at 0, applies the
  128 × 128 weights (a contraction of the clamped sums' feature axis against the weights' SECOND axis), scales row p by
  1 / max(count_p, 1) where count_p > 0 and by 0 elsewhere, and adds the block of target features and the bias row.
  Entry (p, q) of the block is therefore the entry described in Spec.lean (rowVal) of row p's indicators, the source
  features and row q of the weights. A change of float format is the identity on the extended reals.
-/
import proofs.«111334_g7610682049159_cont_9to1_m_1368_24_alg».proof.Proof.Gen.KernelIdeal.Skeleton
import proofs.«111334_g7610682049159_cont_9to1_m_1368_24_alg».proof.Proof.Spec
import proofs.«111334_g7610682049159_cont_9to1_m_1368_24_alg».proof.Proof.LibColumnLayout
import proofs.«111334_g7610682049159_cont_9to1_m_1368_24_alg».proof.Proof.LibPlainDot
import proofs.«111334_g7610682049159_cont_9to1_m_1368_24_alg».proof.Proof.LibDotRowRow
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.MeanMsg

/-- The scalar zero splat is the extended real 0. -/
theorem zeroS : Scalar.ofBits (F := Ideal) .f32 0x00000000#32 = 0 := Ideal.ofBits_zero_f32

/-- The 0/1 selection matrix of a slab: entry > 0, as a float. -/
def mask (v : FVec Ideal S256x4096 .f32) : FVec Ideal S256x4096 .f32 :=
  sitofp .f32 (extui 32 (cmpf .ogt v (broadcast S256x4096 (Scalar.ofBits .f32 0x00000000#32))) natLt_1_32)

theorem mask_apply (v : FVec Ideal S256x4096 .f32) (i : S256x4096.Idx) : mask v i = ind (v i) := by
  show ((((Ideal.cmp .ogt (v i) (Ideal.ofBits .f32 0x00000000#32)).setWidth 32).toInt : ℝ) : EReal) = _
  rw [Ideal.ofBits_zero_f32]
  exact mask_signed (v i)

/-- The per-row count of selected sources, as a column. -/
def cntCol (v : FVec Ideal S256x4096 .f32) : FVec Ideal S256x1 .f32 :=
  shapeCast S256x1 (multiReduction .add [1] S256 (mask v) 0x00000000#32 reduces_S256x4096_S256 (.inl rfl) rfl) shapeCasts_S256_S256x1

theorem cntCol_apply (v : FVec Ideal S256x4096 .f32) (p : Fin 256) :
    cntCol v (ix2 p (0 : Fin 1)) = ∑ s : Fin 4096, ind (v (ix2 p s)) := by
  unfold cntCol
  rw [Cert.ColumnLayout.shapeCast_a_a1_apply]
  refine (Ideal.multiReduction_add_single (mask v) 0x00000000#32 reduces_S256x4096_S256 (.inl rfl) rfl (ix1 p)).trans ?_
  refine Finset.sum_congr rfl fun s _ => ?_
  rw [mask_apply]
  exact congrArg (fun i => ind (v i)) (funext fun a => Fin.ext (by match a with | ⟨0, _⟩ => rfl | ⟨1, _⟩ => rfl))

/-- The per-row factor: 1 / max(count, 1) where the count is positive, 0 elsewhere. -/
def invCol (v : FVec Ideal S256x4096 .f32) : FVec Ideal S256x1 .f32 :=
  select (cmpf .ogt (cntCol v) (broadcast S256x1 (Scalar.ofBits .f32 0x00000000#32)))
    (divf (broadcast S256x1 (Scalar.ofBits .f32 0x3F800000#32)) (maximumf (cntCol v) (broadcast S256x1 (Scalar.ofBits .f32 0x3F800000#32))))
    (broadcast S256x1 (Scalar.ofBits .f32 0x00000000#32))

theorem invCol_apply (v : FVec Ideal S256x4096 .f32) (p : Fin 256) :
    invCol v (ix2 p (0 : Fin 1))
      = if 0 < ∑ s : Fin 4096, ind (v (ix2 p s)) then Ideal.div 1 (max (∑ s : Fin 4096, ind (v (ix2 p s))) 1) else 0 := by
  show Scalar.select (Ideal.cmp .ogt (cntCol v (ix2 p (0 : Fin 1))) (Ideal.ofBits .f32 0x00000000#32))
    (Ideal.div (Ideal.ofBits .f32 0x3F800000#32) (max (cntCol v (ix2 p (0 : Fin 1))) (Ideal.ofBits .f32 0x3F800000#32)))
    (Ideal.ofBits .f32 0x00000000#32) = _
  rw [cntCol_apply, Ideal.ofBits_zero_f32, ofBits_one_f32, select_pos]

/-- The summed source features of the selected sources: the 0/1 matrix times the features. -/
def agg (v : FVec Ideal S256x4096 .f32) (y : FVec Ideal S4096x128 .bf16) : FVec Ideal S256x128 .f32 :=
  matmul dot_S256x4096_S4096x128_S256x128_1_0_0_1_n_n none (truncf .bf16 (mask v) bitsLt_bf16_f32) y (constant S256x128 .f32 0x00000000#32)

theorem agg_apply (v : FVec Ideal S256x4096 .f32) (y : FVec Ideal S4096x128 .bf16) (p : Fin 256) (k : Fin 128) :
    agg v y (ix2 p k) = ∑ s : Fin 4096, ind (v (ix2 p s)) * y (ix2 s k) := by
  unfold agg
  refine (Ideal.matmul_constant_zero_apply dot_S256x4096_S4096x128_S256x128_1_0_0_1_n_n none _ y (ix2 p k)).trans ?_
  refine (Cert.PlainDot.sum_eq dot_S256x4096_S4096x128_S256x128_1_0_0_1_n_n rfl rfl rfl rfl rfl rfl rfl rfl _ y p k).trans ?_
  refine Finset.sum_congr rfl fun s _ => ?_
  rw [truncf_apply, mask_apply]

/-- The linear map: a contraction against the weights' second axis. -/
def lin (h : FVec Ideal S256x128 .f32) (w : FVec Ideal S128x128 .f32) : FVec Ideal S256x128 .f32 :=
  matmul dot_S256x128_S128x128_S256x128_1_1_0_0_n_n none h w (constant S256x128 .f32 0x00000000#32)

theorem lin_apply (h : FVec Ideal S256x128 .f32) (w : FVec Ideal S128x128 .f32) (p : Fin 256) (q : Fin 128) :
    lin h w (ix2 p q) = ∑ k : Fin 128, h (ix2 p k) * w (ix2 q k) := by
  unfold lin
  refine (Ideal.matmul_constant_zero_apply dot_S256x128_S128x128_S256x128_1_1_0_0_n_n none h w (ix2 p q)).trans ?_
  exact Cert.RowRowDot.sum_eq dot_S256x128_S128x128_S256x128_1_1_0_0_n_n rfl rfl rfl rfl rfl rfl rfl rfl h w p q

/-- The first output's payload is the composition of the pieces above. -/
theorem pay3_eq (v4 : FVec Ideal S256x4096 .f32) (v14 : FVec Ideal S4096x128 .bf16) (v18 : FVec Ideal S128x128 .f32)
    (v29 : FVec Ideal S256x128 .f32) (v33 : FVec Ideal S1x128 .f32) :
    k0_pay3 (F := Ideal) v4 v14 v18 v29 v33
      = addf (addf v29 (mulf (lin (maximumf (agg v4 v14) (broadcast S256x128 (Scalar.ofBits .f32 0x00000000#32))) v18)
          (broadcastTo S256x128 (invCol v4) broadcasts_S256x1_S256x128)))
        (broadcastTo S256x128 (shapeCast S1x128 v33 shapeCasts_S1x128_S1x128) broadcasts_S1x128_S256x128) := rfl

/-- ENTRY (p, q) of the first output's payload. -/
theorem pay3_apply (v4 : FVec Ideal S256x4096 .f32) (v14 : FVec Ideal S4096x128 .bf16) (v18 : FVec Ideal S128x128 .f32)
    (v29 : FVec Ideal S256x128 .f32) (v33 : FVec Ideal S1x128 .f32) (p : Fin 256) (q : Fin 128) :
    k0_pay3 (F := Ideal) v4 v14 v18 v29 v33 (ix2 p q)
      = rowVal (v29 (ix2 p q)) (v33 (ix2 (0 : Fin 1) q)) (fun s : Fin 4096 => ind (v4 (ix2 p s)))
          (fun (s : Fin 4096) (k : Fin 128) => v14 (ix2 s k)) (fun k : Fin 128 => v18 (ix2 q k)) := by
  rw [pay3_eq]
  show v29 (ix2 p q) + lin _ v18 (ix2 p q) * broadcastTo S256x128 (invCol v4) broadcasts_S256x1_S256x128 (ix2 p q)
    + broadcastTo S256x128 (shapeCast S1x128 v33 shapeCasts_S1x128_S1x128) broadcasts_S1x128_S256x128 (ix2 p q) = _
  rw [lin_apply, Cert.ColumnLayout.broadcastTo_a1_ab_apply, invCol_apply, broadcastTo_1b_ab_apply, shapeCast_self]
  unfold rowVal
  simp only [maximumf_apply, broadcast_apply, agg_apply, zeroS]

/-- The second output's payload is the same function of its loads. -/
theorem pay4_eq_pay3 (v38 : FVec Ideal S256x4096 .f32) (v48 : FVec Ideal S4096x128 .bf16) (v52 : FVec Ideal S128x128 .f32)
    (v63 : FVec Ideal S256x128 .f32) (v67 : FVec Ideal S1x128 .f32) :
    k0_pay4 (F := Ideal) v38 v48 v52 v63 v67 = k0_pay3 (F := Ideal) v38 v48 v52 v63 v67 := rfl

end Cert.KernelIdeal.Pay

end
-- ==== Proof.Result.lean ====
/-
  The kernel's two result arrays as whole-array functions of its arguments.

  Grid point t works on target rows 256·t … 256·t + 255. Its inputs are: the slab of those rows of each selection
  matrix, both feature arrays whole, both weight matrices whole, both bias rows. The two scratch buffers hold, from the
  first point on, the two feature arrays themselves (a change of float format is the identity on the extended reals),
  by induction on the point: the first point stores them, every later point leaves them as they were. So at EVERY point
  each output block is the body's payload of the slab, the OTHER direction's feature array, the weights, the 256 target
  rows and the bias; read at an entry (Payload.lean) it is the entry of Spec.lean's whole-array function at row
  256·t + p. The sixteen blocks tile the array, so the array after the run is that function.
-/
import proofs.«111334_g7610682049159_cont_9to1_m_1368_24_alg».proof.Proof.Gen.KernelIdeal.Value
import proofs.«111334_g7610682049159_cont_9to1_m_1368_24_alg».proof.Proof.Pieces
import proofs.«111334_g7610682049159_cont_9to1_m_1368_24_alg».proof.Proof.Payload
import proofs.«111334_g7610682049159_cont_9to1_m_1368_24_alg».proof.Proof.Spec
import Idealize.ShloMosaic.Lib.Pipeline.Value
import Idealize.ShloMosaic.Lib.StableHlo.Run
import Idealize.ShloMosaic.Lib.ValueLayout

noncomputable section

open scoped BigOperators

namespace Cert.KernelIdeal.Result

open Cert.KernelIdeal Cert.KernelIdeal.Gen Cert.KernelIdeal.Pieces Cert.KernelIdeal.Pay Cert.MeanMsg
open Idealize.ShloMosaic Idealize.ShloMosaic.ValueIdx Idealize.ShloMosaic.TcCoe Idealize.SL.Sem
open Idealize.ShloMosaic.Pipeline (Dat)

/-! ## The index maps, decided once over the sixteen grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ (grid0.coords t 0).val = t.val :=
  (by decide +kernel : ∀ t : Fin grid0.N, _)

section AnyInstance

variable {F : FTy → Type} [FloatOps F]
variable (m : (ℓ : Loc nD τ sig) → Buf (Elt F) ℓ)

/-! ## The input blocks at a point -/

/-- The window on the first feature array is the whole array at every point. -/
theorem blk2 (c : Dev nD) (t : Fin cfg0.N) : (iblk m c 2 t : Vec F S4096x128 .f32) = V m c main_arg0 := by
  funext y
  show V m c main_arg0 (((cfg0.win 2).blk t).view.emb y) = V m c main_arg0 y
  refine congrArg (V m c main_arg0) (funext fun a => Fin.ext ?_)
  obtain ⟨-, -, -, -, e0, e1, -⟩ := idx_facts t
  match a with
  | ⟨0, _⟩ => show win0_2.index t (0 : Fin 2) * 4096 + 1 * (y 0).val = (y 0).val; rw [e0]; omega
  | ⟨1, _⟩ => show win0_2.index t (1 : Fin 2) * 128 + 1 * (y 1).val = (y 1).val; rw [e1]; omega

/-- The window on the second feature array is the whole array at every point. -/
theorem blk3 (c : Dev nD) (t : Fin cfg0.N) : (iblk m c 3 t : Vec F S4096x128 .f32) = V m c main_arg1 := by
  funext y
  show V m c main_arg1 (((cfg0.win 3).blk t).view.emb y) = V m c main_arg1 y
  refine congrArg (V m c main_arg1) (funext fun a => Fin.ext ?_)
  obtain ⟨-, -, -, -, -, -, e0, e1, -⟩ := idx_facts t
  match a with
  | ⟨0, _⟩ => show win0_3.index t (0 : Fin 2) * 4096 + 1 * (y 0).val = (y 0).val; rw [e0]; omega
  | ⟨1, _⟩ => show win0_3.index t (1 : Fin 2) * 128 + 1 * (y 1).val = (y 1).val; rw [e1]; omega

/-! ## The scratch buffers hold the feature arrays from the first point on -/

theorem scratch_aux (c : Dev nD) : ∀ (n : ℕ) (t : Fin cfg0.N), t.val = n →
    (outsAt0 m c t.val t.isLt).2.2.1 = k0_pay1 (V m c main_arg0) ∧ (outsAt0 m c t.val t.isLt).2.2.2 = k0_pay2 (V m c main_arg1)
  | 0, t, ht => by
    have h0 : t.val % 16 = 0 := by rw [ht]
    have e := outsAt0_A m c t h0
    have e1 := sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)
    have e2 := sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)
    rw [e]
    dsimp only
    exact ⟨e1.trans (congrArg k0_pay1 (blk2 m c t)), e2.trans (congrArg k0_pay2 (blk3 m c t))⟩
  | n + 1, t, ht => by
    have hN : cfg0.N = 16 := N_0
    have hlt := t.isLt
    have hB : ¬t.val % 16 = 0 := by omega
    have e := outsAt0_B m c t hB
    have ih := scratch_aux c n ⟨t.val - 1, by omega⟩ (by show t.val - 1 = n; omega)
    rw [e]
    dsimp only
    unfold sout0_B_0 sout0_B_1
    exact ih

theorem scratch (c : Dev nD) (t : Fin cfg0.N) :
    (outsAt0 m c t.val t.isLt).2.2.1 = k0_pay1 (V m c main_arg0) ∧ (outsAt0 m c t.val t.isLt).2.2.2 = k0_pay2 (V m c main_arg1) :=
  scratch_aux m c t.val t rfl

/-! ## Each output block at a point is the body's payload of the point's inputs -/

theorem out8_at (c : Dev nD) (t : Fin cfg0.N) :
    (outsAt0 m c t.val t.isLt).1
      = k0_pay3 (iblk m c 0 t) (k0_pay2 (V m c main_arg1)) (iblk m c 4 t) (rowsAt (grid0.coords t) (V m c main_arg0)) (iblk m c 6 t) := by
  by_cases h0 : t.val % 16 = 0
  · rw [outsAt0_A m c t h0]
    dsimp only
    refine (oA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)).trans ?_
    rw [blk2 m c t, blk3 m c t]
  · rw [outsAt0_B m c t h0]
    dsimp only
    refine (oB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [(scratch m c ⟨t.val - 1, Nat.lt_of_le_of_lt (Nat.sub_le _ _) t.isLt⟩).2, blk2 m c t]

theorem out9_at (c : Dev nD) (t : Fin cfg0.N) :
    (outsAt0 m c t.val t.isLt).2.1
      = k0_pay4 (iblk m c 1 t) (k0_pay1 (V m c main_arg0)) (iblk m c 5 t) (rowsAt (grid0.coords t) (V m c main_arg1)) (iblk m c 7 t) := by
  by_cases h0 : t.val % 16 = 0
  · rw [outsAt0_A m c t h0]
    dsimp only
    refine (oA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)).trans ?_
    rw [blk2 m c t, blk3 m c t]
  · rw [outsAt0_B m c t h0]
    dsimp only
    refine (oB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [(scratch m c ⟨t.val - 1, Nat.lt_of_le_of_lt (Nat.sub_le _ _) t.isLt⟩).1, blk3 m c t]

end AnyInstance

end Cert.KernelIdeal.Result

end
-- ==== Proof.KernelValue.lean ====
/-
  The kernel's two result arrays after the run, at the extended reals.

  At point t output block t is the body's payload (Result.lean); read at entry (p, q) (Payload.lean) it is Spec.lean's entry
  of target row 256·t + p: the slab's row p is row 256·t + p of the selection matrix, the 256 target rows start at row
  256·t, the scratch buffer is the other direction's feature array, the weights and the bias are whole. The bias row the
  kernel reads is the length-128 bias argument viewed as a 1 × 128 array by the host before the region. The blocks of the
  sixteen points tile the 4096 rows, so the array after the run is Spec.lean's whole-array function of the arguments.
-/
import proofs.«111334_g7610682049159_cont_9to1_m_1368_24_alg».proof.Proof.Result

noncomputable section

open scoped BigOperators

namespace Cert.KernelIdeal.Result

open Cert.KernelIdeal Cert.KernelIdeal.Gen Cert.KernelIdeal.Pieces Cert.KernelIdeal.Pay Cert.MeanMsg
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The first scratch payload (a change of float format and a cast to the same shape) is the identity. -/
theorem k0_pay1_id (X : FVec Ideal S4096x128 .f32) : k0_pay1 (F := Ideal) X = X := by
  unfold k0_pay1
  dsimp only
  rw [shapeCast_self]
  rfl

/-- The second scratch payload likewise. -/
theorem k0_pay2_id (X : FVec Ideal S4096x128 .f32) : k0_pay2 (F := Ideal) X = X := by
  unfold k0_pay2
  dsimp only
  rw [shapeCast_self]
  rfl

/-- The 256 target rows read at grid coordinates i: entry (p, q) is entry (256·i₀ + p, q) of the array. -/
theorem rows_apply (i : grid0.Coords) (x : Vec Ideal S4096x128 .f32) (p : Fin 256) (q : Fin 128) (P : Fin 4096)
    (hP : P.val = 256 * (i 0).val + p.val) : rowsAt i x (ix2 p q) = x (ix2 P q) := by
  unfold rowsAt
  show x _ = x _
  refine congrArg x (funext fun a => Fin.ext ?_)
  match a with
  | ⟨0, _⟩ => show (k0_off1 i) 0 + 1 * p.val = P.val; rw [k0_off1_eq i, hP]; show 256 * (i 0).val + 1 * p.val = _; omega
  | ⟨1, _⟩ => show (k0_off1 i) 1 + 1 * q.val = q.val; rw [k0_off1_eq i]; show 0 + 1 * q.val = q.val; omega

/-- The host's two reshapes before the region: the bias vectors viewed as 1 × 128 rows. -/
theorem bias_v0 (c : Dev nD) : (V m c main_v0 : S1x128.Idx → EReal)
    = shapeCast S1x128 (m ((c : Thread nD τ).loc main_arg5)) shapeCasts_S128_S1x128 := by
  dsimp only [Gen.V, Gen.hostOps0]; after_results; rfl

theorem bias_v1 (c : Dev nD) : (V m c main_v1 : S1x128.Idx → EReal)
    = shapeCast S1x128 (m ((c : Thread nD τ).loc main_arg7)) shapeCasts_S128_S1x128 := by
  dsimp only [Gen.V, Gen.hostOps0]; after_results; rfl

/-! ## The first result: messages to the first feature array's rows -/

/-- The slab of selection-matrix rows at point t: entry (p, s) of the block is entry (256·t + p, s) of the array. -/
theorem slab0 (c : Dev nD) (t : Fin cfg0.N) (p : Fin 256) (s : Fin 4096) (P : Fin 4096) (hP : P.val = 256 * t.val + p.val) :
    (iblk m c 0 t : Vec Ideal S256x4096 .f32) (ix2 p s) = V m c main_arg2 (ix2 P s) := by
  show V m c main_arg2 (((cfg0.win 0).blk t).view.emb (ix2 p s)) = _
  refine congrArg (V m c main_arg2) (funext fun a => Fin.ext ?_)
  have e0 := (idx_facts t).1
  have e1 := (idx_facts t).2.1
  match a with
  | ⟨0, _⟩ => show win0_0.index t (0 : Fin 2) * 256 + 1 * p.val = P.val; rw [e0, hP]; omega
  | ⟨1, _⟩ => show win0_0.index t (1 : Fin 2) * 4096 + 1 * s.val = s.val; rw [e1]; omega

/-- The weights' window is the whole matrix at every point. -/
theorem wts4 (c : Dev nD) (t : Fin cfg0.N) (q k : Fin 128) :
    (iblk m c 4 t : Vec Ideal S128x128 .f32) (ix2 q k) = V m c main_arg4 (ix2 q k) := by
  show V m c main_arg4 (((cfg0.win 4).blk t).view.emb (ix2 q k)) = _
  refine congrArg (V m c main_arg4) (funext fun a => Fin.ext ?_)
  have e0 := (idx_facts t).2.2.2.2.2.2.2.2.1
  have e1 := (idx_facts t).2.2.2.2.2.2.2.2.2.1
  match a with
  | ⟨0, _⟩ => show win0_4.index t (0 : Fin 2) * 128 + 1 * q.val = q.val; rw [e0]; omega
  | ⟨1, _⟩ => show win0_4.index t (1 : Fin 2) * 128 + 1 * k.val = k.val; rw [e1]; omega

/-- The bias window is the whole 1 × 128 row at every point, and that row is the bias argument. -/
theorem brow6 (c : Dev nD) (t : Fin cfg0.N) (q : Fin 128) :
    (iblk m c 6 t : Vec Ideal S1x128 .f32) (ix2 (0 : Fin 1) q) = m ((c : Thread nD τ).loc main_arg5) (ix1 q) := by
  have hV : V m c main_v0 (ix2 (0 : Fin 1) q) = m ((c : Thread nD τ).loc main_arg5) (ix1 q) := by
    rw [bias_v0 m c]
    exact shapeCast_a_1a_apply _ _ (0 : Fin 1) q
  refine Eq.trans ?_ hV
  show V m c main_v0 (((cfg0.win 6).blk t).view.emb (ix2 (0 : Fin 1) q)) = _
  refine congrArg (V m c main_v0) (funext fun a => Fin.ext ?_)
  have e0 := (idx_facts t).2.2.2.2.2.2.2.2.2.2.2.2.1
  have e1 := (idx_facts t).2.2.2.2.2.2.2.2.2.2.2.2.2.1
  match a with
  | ⟨0, _⟩ => show win0_6.index t (0 : Fin 2) * 1 + 1 * (0 : Fin 1).val = (0 : Fin 1).val; rw [e0]; rfl
  | ⟨1, _⟩ => show win0_6.index t (1 : Fin 2) * 128 + 1 * q.val = q.val; rw [e1]; omega

/-- WHAT POINT t WRITES BACK to this result: block t of the whole-array function. -/
theorem flushed8_eq (c : Dev nD) (t : Fin cfg0.N) :
    (dats m 0 c).flushed 8 t = ((cfg0.win 8).blk t).view.read (Elt Ideal)
      (outArr (V m c main_arg0) (V m c main_arg1) (V m c main_arg2) (V m c main_arg4) (m ((c : Thread nD τ).loc main_arg5))) := by
  rw [Value.flushed8, out8_at]
  funext y
  obtain ⟨p, q, rfl⟩ : ∃ (p : Fin 256) (q : Fin 128), y = ix2 p q := ⟨y 0, y 1, eq_ix2 y⟩
  have hN : cfg0.N = 16 := N_0
  have ht := t.isLt
  have hp := p.isLt
  obtain ⟨P, hP⟩ : ∃ P : Fin 4096, P.val = 256 * t.val + p.val := ⟨⟨256 * t.val + p.val, by omega⟩, rfl⟩
  have e0 := (idx_facts t).2.2.2.2.2.2.2.2.2.2.2.2.2.2.2.2.1
  have e1 := (idx_facts t).2.2.2.2.2.2.2.2.2.2.2.2.2.2.2.2.2.1
  have eg := (idx_facts t).2.2.2.2.2.2.2.2.2.2.2.2.2.2.2.2.2.2.2.2
  have hemb : ((cfg0.win 8).blk t).view.emb (ix2 p q) = ix2 P q := funext fun a => Fin.ext (by
    match a with
    | ⟨0, _⟩ => show win0_8.index t (0 : Fin 2) * 256 + 1 * p.val = P.val; rw [e0, hP]; omega
    | ⟨1, _⟩ => show win0_8.index t (1 : Fin 2) * 128 + 1 * q.val = q.val; rw [e1]; omega)
  show k0_pay3 (F := Ideal) (iblk m c 0 t) (k0_pay2 (V m c main_arg1)) (iblk m c 4 t)
      (rowsAt (grid0.coords t) (V m c main_arg0)) (iblk m c 6 t) (ix2 p q)
    = outArr (V m c main_arg0) (V m c main_arg1) (V m c main_arg2) (V m c main_arg4) (m ((c : Thread nD τ).loc main_arg5))
        (((cfg0.win 8).blk t).view.emb (ix2 p q))
  rw [hemb, outArr_ix2]
  refine (pay3_apply (iblk m c 0 t) (k0_pay2 (V m c main_arg1)) (iblk m c 4 t)
    (rowsAt (grid0.coords t) (V m c main_arg0)) (iblk m c 6 t) p q).trans ?_
  unfold outAt
  exact rowVal_congr (rows_apply (grid0.coords t) (V m c main_arg0) p q P (by rw [hP, eg]))
    (brow6 m c t q) (fun s => congrArg ind (slab0 m c t p s P hP))
    (fun s k => congrFun (k0_pay2_id (V m c main_arg1)) (ix2 s k)) (fun k => wts4 m c t q k)

/-- Every row of the result lies in the block of the point that owns it. -/
theorem cover8 (i : S4096x128.Idx) :
    ∃ t : Fin cfg0.N, (cfg0.win 8).flush t = true ∧ i ∈ ((cfg0.win 8).blk t).view.set := by
  have hN : cfg0.N = 16 := N_0
  have hi0 : (i 0).val < 4096 := (i 0).isLt
  have hi1 : (i 1).val < 128 := (i 1).isLt
  let t : Fin cfg0.N := ⟨(i 0).val / 256, by omega⟩
  have e0 := (idx_facts t).2.2.2.2.2.2.2.2.2.2.2.2.2.2.2.2.1
  have e1 := (idx_facts t).2.2.2.2.2.2.2.2.2.2.2.2.2.2.2.2.2.1
  have htv : t.val = (i 0).val / 256 := rfl
  refine ⟨t, flush0_8 t, ?_⟩
  show i ∈ ((View.whole main_v2_0).slice (win0_8.rect t)).set
  rw [View.set_slice_whole, Rect.mem_set_unit]
  intro a
  match a with
  | ⟨0, _⟩ =>
    show win0_8.index t (0 : Fin 2) * 256 ≤ (i 0).val ∧ (i 0).val < win0_8.index t (0 : Fin 2) * 256 + 256
    rw [e0, htv]; omega
  | ⟨1, _⟩ =>
    show win0_8.index t (1 : Fin 2) * 128 ≤ (i 1).val ∧ (i 1).val < win0_8.index t (1 : Fin 2) * 128 + 128
    rw [e1]; omega

/-- THE RESULT ARRAY after the run. -/
theorem final8 (c : Dev nD) : (dats m 0 c).arrAt 8 cfg0.N
    = outArr (V m c main_arg0) (V m c main_arg1) (V m c main_arg2) (V m c main_arg4) (m ((c : Thread nD τ).loc main_arg5)) :=
  (dats m 0 c).arrAt_eq_of_cover 8 _ (fun t _ => flushed8_eq m c t) cover8

/-! ## The second result: messages to the second feature array's rows -/

/-- The slab of selection-matrix rows at point t: entry (p, s) of the block is entry (256·t + p, s) of the array. -/
theorem slab1 (c : Dev nD) (t : Fin cfg0.N) (p : Fin 256) (s : Fin 4096) (P : Fin 4096) (hP : P.val = 256 * t.val + p.val) :
    (iblk m c 1 t : Vec Ideal S256x4096 .f32) (ix2 p s) = V m c main_arg3 (ix2 P s) := by
  show V m c main_arg3 (((cfg0.win 1).blk t).view.emb (ix2 p s)) = _
  refine congrArg (V m c main_arg3) (funext fun a => Fin.ext ?_)
  have e0 := (idx_facts t).2.2.1
  have e1 := (idx_facts t).2.2.2.1
  match a with
  | ⟨0, _⟩ => show win0_1.index t (0 : Fin 2) * 256 + 1 * p.val = P.val; rw [e0, hP]; omega
  | ⟨1, _⟩ => show win0_1.index t (1 : Fin 2) * 4096 + 1 * s.val = s.val; rw [e1]; omega

/-- The weights' window is the whole matrix at every point. -/
theorem wts5 (c : Dev nD) (t : Fin cfg0.N) (q k : Fin 128) :
    (iblk m c 5 t : Vec Ideal S128x128 .f32) (ix2 q k) = V m c main_arg6 (ix2 q k) := by
  show V m c main_arg6 (((cfg0.win 5).blk t).view.emb (ix2 q k)) = _
  refine congrArg (V m c main_arg6) (funext fun a => Fin.ext ?_)
  have e0 := (idx_facts t).2.2.2.2.2.2.2.2.2.2.1
  have e1 := (idx_facts t).2.2.2.2.2.2.2.2.2.2.2.1
  match a with
  | ⟨0, _⟩ => show win0_5.index t (0 : Fin 2) * 128 + 1 * q.val = q.val; rw [e0]; omega
  | ⟨1, _⟩ => show win0_5.index t (1 : Fin 2) * 128 + 1 * k.val = k.val; rw [e1]; omega

/-- The bias window is the whole 1 × 128 row at every point, and that row is the bias argument. -/
theorem brow7 (c : Dev nD) (t : Fin cfg0.N) (q : Fin 128) :
    (iblk m c 7 t : Vec Ideal S1x128 .f32) (ix2 (0 : Fin 1) q) = m ((c : Thread nD τ).loc main_arg7) (ix1 q) := by
  have hV : V m c main_v1 (ix2 (0 : Fin 1) q) = m ((c : Thread nD τ).loc main_arg7) (ix1 q) := by
    rw [bias_v1 m c]
    exact shapeCast_a_1a_apply _ _ (0 : Fin 1) q
  refine Eq.trans ?_ hV
  show V m c main_v1 (((cfg0.win 7).blk t).view.emb (ix2 (0 : Fin 1) q)) = _
  refine congrArg (V m c main_v1) (funext fun a => Fin.ext ?_)
  have e0 := (idx_facts t).2.2.2.2.2.2.2.2.2.2.2.2.2.2.1
  have e1 := (idx_facts t).2.2.2.2.2.2.2.2.2.2.2.2.2.2.2.1
  match a with
  | ⟨0, _⟩ => show win0_7.index t (0 : Fin 2) * 1 + 1 * (0 : Fin 1).val = (0 : Fin 1).val; rw [e0]; rfl
  | ⟨1, _⟩ => show win0_7.index t (1 : Fin 2) * 128 + 1 * q.val = q.val; rw [e1]; omega

/-- WHAT POINT t WRITES BACK to this result: block t of the whole-array function. -/
theorem flushed9_eq (c : Dev nD) (t : Fin cfg0.N) :
    (dats m 0 c).flushed 9 t = ((cfg0.win 9).blk t).view.read (Elt Ideal)
      (outArr (V m c main_arg1) (V m c main_arg0) (V m c main_arg3) (V m c main_arg6) (m ((c : Thread nD τ).loc main_arg7))) := by
  rw [Value.flushed9, out9_at]
  funext y
  obtain ⟨p, q, rfl⟩ : ∃ (p : Fin 256) (q : Fin 128), y = ix2 p q := ⟨y 0, y 1, eq_ix2 y⟩
  have hN : cfg0.N = 16 := N_0
  have ht := t.isLt
  have hp := p.isLt
  obtain ⟨P, hP⟩ : ∃ P : Fin 4096, P.val = 256 * t.val + p.val := ⟨⟨256 * t.val + p.val, by omega⟩, rfl⟩
  have e0 := (idx_facts t).2.2.2.2.2.2.2.2.2.2.2.2.2.2.2.2.2.2.1
  have e1 := (idx_facts t).2.2.2.2.2.2.2.2.2.2.2.2.2.2.2.2.2.2.2.1
  have eg := (idx_facts t).2.2.2.2.2.2.2.2.2.2.2.2.2.2.2.2.2.2.2.2
  have hemb : ((cfg0.win 9).blk t).view.emb (ix2 p q) = ix2 P q := funext fun a => Fin.ext (by
    match a with
    | ⟨0, _⟩ => show win0_9.index t (0 : Fin 2) * 256 + 1 * p.val = P.val; rw [e0, hP]; omega
    | ⟨1, _⟩ => show win0_9.index t (1 : Fin 2) * 128 + 1 * q.val = q.val; rw [e1]; omega)
  show k0_pay4 (F := Ideal) (iblk m c 1 t) (k0_pay1 (V m c main_arg0)) (iblk m c 5 t)
      (rowsAt (grid0.coords t) (V m c main_arg1)) (iblk m c 7 t) (ix2 p q)
    = outArr (V m c main_arg1) (V m c main_arg0) (V m c main_arg3) (V m c main_arg6) (m ((c : Thread nD τ).loc main_arg7))
        (((cfg0.win 9).blk t).view.emb (ix2 p q))
  rw [hemb, outArr_ix2, pay4_eq_pay3]
  refine (pay3_apply (iblk m c 1 t) (k0_pay1 (V m c main_arg0)) (iblk m c 5 t)
    (rowsAt (grid0.coords t) (V m c main_arg1)) (iblk m c 7 t) p q).trans ?_
  unfold outAt
  exact rowVal_congr (rows_apply (grid0.coords t) (V m c main_arg1) p q P (by rw [hP, eg]))
    (brow7 m c t q) (fun s => congrArg ind (slab1 m c t p s P hP))
    (fun s k => congrFun (k0_pay1_id (V m c main_arg0)) (ix2 s k)) (fun k => wts5 m c t q k)

/-- Every row of the result lies in the block of the point that owns it. -/
theorem cover9 (i : S4096x128.Idx) :
    ∃ t : Fin cfg0.N, (cfg0.win 9).flush t = true ∧ i ∈ ((cfg0.win 9).blk t).view.set := by
  have hN : cfg0.N = 16 := N_0
  have hi0 : (i 0).val < 4096 := (i 0).isLt
  have hi1 : (i 1).val < 128 := (i 1).isLt
  let t : Fin cfg0.N := ⟨(i 0).val / 256, by omega⟩
  have e0 := (idx_facts t).2.2.2.2.2.2.2.2.2.2.2.2.2.2.2.2.2.2.1
  have e1 := (idx_facts t).2.2.2.2.2.2.2.2.2.2.2.2.2.2.2.2.2.2.2.1
  have htv : t.val = (i 0).val / 256 := rfl
  refine ⟨t, flush0_9 t, ?_⟩
  show i ∈ ((View.whole main_v2_1).slice (win0_9.rect t)).set
  rw [View.set_slice_whole, Rect.mem_set_unit]
  intro a
  match a with
  | ⟨0, _⟩ =>
    show win0_9.index t (0 : Fin 2) * 256 ≤ (i 0).val ∧ (i 0).val < win0_9.index t (0 : Fin 2) * 256 + 256
    rw [e0, htv]; omega
  | ⟨1, _⟩ =>
    show win0_9.index t (1 : Fin 2) * 128 ≤ (i 1).val ∧ (i 1).val < win0_9.index t (1 : Fin 2) * 128 + 128
    rw [e1]; omega

/-- THE RESULT ARRAY after the run. -/
theorem final9 (c : Dev nD) : (dats m 0 c).arrAt 9 cfg0.N
    = outArr (V m c main_arg1) (V m c main_arg0) (V m c main_arg3) (V m c main_arg6) (m ((c : Thread nD τ).loc main_arg7)) :=
  (dats m 0 c).arrAt_eq_of_cover 9 _ (fun t _ => flushed9_eq m c t) cover9

/-! ## The run, read -/

/-- The kernel's run with both result arrays named as functions of the arguments' launch contents. -/
theorem run : θ_run defs (onTc (τ := τ) (main (F := Ideal))) ⟨m, fun _ => 0, ρ⟩ fun r => ∀ c : Dev nD,
      r.2.mem ((c : Thread nD τ).loc main_v2_0)
        = outArr (m ((c : Thread nD τ).loc main_arg0)) (m ((c : Thread nD τ).loc main_arg1)) (m ((c : Thread nD τ).loc main_arg2))
            (m ((c : Thread nD τ).loc main_arg4)) (m ((c : Thread nD τ).loc main_arg5))
      ∧ r.2.mem ((c : Thread nD τ).loc main_v2_1)
        = outArr (m ((c : Thread nD τ).loc main_arg1)) (m ((c : Thread nD τ).loc main_arg0)) (m ((c : Thread nD τ).loc main_arg3))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨by
      rw [(h c).1, final8 m c, V_main_arg0 m c, V_main_arg1 m c, V_main_arg2 m c, V_main_arg4 m c], by
      rw [(h c).2.1, final9 m c, V_main_arg0 m c, V_main_arg1 m c, V_main_arg3 m c, V_main_arg6 m c],
      (h c).2.2⟩)
    (Value.run_blocks m ρ)

end Cert.KernelIdeal.Result

end
-- ==== Proof.RefEntry.lean ====
/-
  The reference, read entry by entry.

  For each of the two directions the reference computes, over whole arrays: the 0/1 selection matrix, the per-row count
  (a sum started from zero), the summed features of the selected sources (a matrix product), the mean (the sum divided by
  max(count, 1) where the count is positive, 0 where it is not), the clamp at 0, the product with the TRANSPOSED weights,
  and adds the target features and the bias. Entry (p, q) of the result is the entry described in Spec.lean (rowRef) of
  row p's indicators, the source features and row q of the weights. The two directions are the same operations on
  different arguments; the two sections below differ only in the names of the stages they cite.
-/
import proofs.«111334_g7610682049159_cont_9to1_m_1368_24_alg».proof.Proof.RefRead
import proofs.«111334_g7610682049159_cont_9to1_m_1368_24_alg».proof.Proof.Spec

noncomputable section

open scoped BigOperators

namespace Cert.ReferenceIdeal.Entry

open Cert.ReferenceIdeal Cert.ReferenceIdeal.ReadP Idealize.ShloMosaic Idealize.ShloMosaic.ValueIdx Cert.MeanMsg

namespace ToObjects

/-- The reference's 0/1 selection matrix at an entry is the indicator of the matrix entry. -/
theorem sel_apply (mat : S4096x4096.Idx → EReal) (p : Fin 4096) (s : Fin 4096) :
    val_main_v2 (F := Ideal) mat (ix2 p s) = ind (mat (ix2 p s)) := by
  rw [val_main_v2_apply, val_main_v1_apply, val_main_v0_apply, val_main_cst_apply]
  show (((Ideal.cmp .ogt (mat (ix2 p s)) (Ideal.ofBits .f32 0x00000000#32)).toNat : ℝ) : EReal) = _
  rw [Ideal.ofBits_zero_f32]
  exact mask_unsigned _

/-- The reference's count column at row p: the sum, started from zero, of the row's indicators. -/
theorem cnt_apply (mat : S4096x4096.Idx → EReal) (p : Fin 4096) (u : Fin 1) :
    val_main_v5 (F := Ideal) mat (ix2 p u) = 0 + ∑ s : Fin 4096, ind (mat (ix2 p s)) := by
  rw [val_main_v5_apply, val_main_v4_apply, val_main_cst_0_apply]
  refine congrArg₂ (· + ·) Ideal.ofBits_zero_f32 (Finset.sum_congr rfl fun s _ => ?_)
  refine Eq.trans (congrArg (val_main_v2 (F := Ideal) mat) (funext fun a => Fin.ext ?_)) (sel_apply mat p s)
  match a with
  | ⟨0, _⟩ => rfl
  | ⟨1, _⟩ => rfl

/-- The summed features of the selected sources, at (p, k). -/
theorem acc_apply (src : S4096x128.Idx → EReal) (mat : S4096x4096.Idx → EReal) (p : Fin 4096) (k : Fin 128) :
    val_main_v3 (F := Ideal) src mat (ix2 p k) = ∑ s : Fin 4096, ind (mat (ix2 p s)) * src (ix2 s k) := by
  rw [val_main_v3_apply]
  refine Finset.sum_congr rfl fun s _ => ?_
  refine congrArg₂ (· * ·) ?_ (congrArg src (funext fun a => Fin.ext ?_))
  · refine Eq.trans (congrArg (val_main_v2 (F := Ideal) mat) (funext fun a => Fin.ext ?_)) (sel_apply mat p s)
    match a with
    | ⟨0, _⟩ => rfl
    | ⟨1, _⟩ => rfl
  · match a with
    | ⟨0, _⟩ => rfl
    | ⟨1, _⟩ => rfl

/-- The message at (p, k): the mean over the selected sources where there are any, else 0. -/
theorem msg_apply (src : S4096x128.Idx → EReal) (mat : S4096x4096.Idx → EReal) (p : Fin 4096) (k : Fin 128) :
    val_main_v13 (F := Ideal) src mat (ix2 p k)
      = if 0 < 0 + ∑ s : Fin 4096, ind (mat (ix2 p s)) then
          Ideal.div (∑ s : Fin 4096, ind (mat (ix2 p s)) * src (ix2 s k)) (max (0 + ∑ s : Fin 4096, ind (mat (ix2 p s))) 1)
        else 0 := by
  rw [val_main_v13_apply, val_main_call0_v0_apply, val_main_v7_apply, val_main_v11_apply, val_main_v10_apply, val_main_v9_apply,
    val_main_v12_apply, val_main_cst_3_apply, val_main_v6_apply, val_main_cst_1_apply, val_main_v8_apply, val_main_cst_2_apply, acc_apply]
  have e1 : val_main_v5 (F := Ideal) mat (idx_main_call0_v0 (ix2 p k)) = 0 + ∑ s : Fin 4096, ind (mat (ix2 p s)) :=
    Eq.trans (congrArg (val_main_v5 (F := Ideal) mat) (funext fun a => Fin.ext (by
      match a with
      | ⟨0, _⟩ => rfl
      | ⟨1, _⟩ => rfl))) (cnt_apply mat p (0 : Fin 1))
  rw [e1]
  show Scalar.select (Ideal.cmp .ogt _ (Ideal.ofBits .f32 0x00000000#32))
    (Ideal.div _ (max _ (Ideal.ofBits .f32 0x3F800000#32))) (Ideal.ofBits .f32 0x00000000#32) = _
  rw [Ideal.ofBits_zero_f32, ofBits_one_f32, select_pos]

/-- The clamped message at (p, k). -/
theorem relu_apply (src : S4096x128.Idx → EReal) (mat : S4096x4096.Idx → EReal) (p : Fin 4096) (k : Fin 128) :
    val_main_v14 (F := Ideal) src mat (ix2 p k)
      = max (if 0 < 0 + ∑ s : Fin 4096, ind (mat (ix2 p s)) then
          Ideal.div (∑ s : Fin 4096, ind (mat (ix2 p s)) * src (ix2 s k)) (max (0 + ∑ s : Fin 4096, ind (mat (ix2 p s))) 1)
        else 0) 0 := by
  rw [val_main_v14_apply, msg_apply, val_main_call1_v0_apply, val_main_call1_cst_apply]
  show max _ (Ideal.ofBits .f32 0x00000000#32) = _
  rw [Ideal.ofBits_zero_f32]

/-- THE REFERENCE'S ENTRY (p, q): the form with the mean taken first (Spec.lean, rowRef). -/
theorem out_apply (tgt src : S4096x128.Idx → EReal) (mat : S4096x4096.Idx → EReal) (W : S128x128.Idx → EReal)
    (b : S128.Idx → EReal) (p : Fin 4096) (q : Fin 128) :
    val_main_v20 (F := Ideal) tgt src mat W b (ix2 p q)
      = rowRef (tgt (ix2 p q)) (b (ix1 q)) (fun s : Fin 4096 => ind (mat (ix2 p s)))
          (fun (s : Fin 4096) (k : Fin 128) => src (ix2 s k)) (fun k : Fin 128 => W (ix2 q k)) := by
  rw [val_main_v20_apply, val_main_v17_apply, val_main_v16_apply, val_main_v19_apply, val_main_v18_apply]
  unfold rowRef
  show tgt (ix2 p q) + _ + _ = _
  refine congrArg₂ (· + ·) (congrArg (tgt (ix2 p q) + ·) (Finset.sum_congr rfl fun k _ => ?_)) (congrArg b (funext fun a => Fin.ext ?_))
  · refine congrArg₂ (· * ·) ?_ ?_
    · refine Eq.trans (congrArg (val_main_v14 (F := Ideal) src mat) (funext fun a => Fin.ext ?_)) (relu_apply src mat p k)
      match a with
      | ⟨0, _⟩ => rfl
      | ⟨1, _⟩ => rfl
    · rw [val_main_v15_apply]
      refine congrArg W (funext fun a => Fin.ext ?_)
      match a with
      | ⟨0, _⟩ => rfl
      | ⟨1, _⟩ => rfl
  · match a with
    | ⟨0, _⟩ => rfl

end ToObjects

namespace ToRegions

/-- The reference's 0/1 selection matrix at an entry is the indicator of the matrix entry. -/
theorem sel_apply (mat : S4096x4096.Idx → EReal) (p : Fin 4096) (s : Fin 4096) :
    val_main_v23 (F := Ideal) mat (ix2 p s) = ind (mat (ix2 p s)) := by
  rw [val_main_v23_apply, val_main_v22_apply, val_main_v21_apply, val_main_cst_4_apply]
  show (((Ideal.cmp .ogt (mat (ix2 p s)) (Ideal.ofBits .f32 0x00000000#32)).toNat : ℝ) : EReal) = _
  rw [Ideal.ofBits_zero_f32]
  exact mask_unsigned _

/-- The reference's count column at row p: the sum, started from zero, of the row's indicators. -/
theorem cnt_apply (mat : S4096x4096.Idx → EReal) (p : Fin 4096) (u : Fin 1) :
    val_main_v26 (F := Ideal) mat (ix2 p u) = 0 + ∑ s : Fin 4096, ind (mat (ix2 p s)) := by
  rw [val_main_v26_apply, val_main_v25_apply, val_main_cst_5_apply]
  refine congrArg₂ (· + ·) Ideal.ofBits_zero_f32 (Finset.sum_congr rfl fun s _ => ?_)
  refine Eq.trans (congrArg (val_main_v23 (F := Ideal) mat) (funext fun a => Fin.ext ?_)) (sel_apply mat p s)
  match a with
  | ⟨0, _⟩ => rfl
  | ⟨1, _⟩ => rfl

/-- The summed features of the selected sources, at (p, k). -/
theorem acc_apply (src : S4096x128.Idx → EReal) (mat : S4096x4096.Idx → EReal) (p : Fin 4096) (k : Fin 128) :
    val_main_v24 (F := Ideal) src mat (ix2 p k) = ∑ s : Fin 4096, ind (mat (ix2 p s)) * src (ix2 s k) := by
  rw [val_main_v24_apply]
  refine Finset.sum_congr rfl fun s _ => ?_
  refine congrArg₂ (· * ·) ?_ (congrArg src (funext fun a => Fin.ext ?_))
  · refine Eq.trans (congrArg (val_main_v23 (F := Ideal) mat) (funext fun a => Fin.ext ?_)) (sel_apply mat p s)
    match a with
    | ⟨0, _⟩ => rfl
    | ⟨1, _⟩ => rfl
  · match a with
    | ⟨0, _⟩ => rfl
    | ⟨1, _⟩ => rfl

/-- The message at (p, k): the mean over the selected sources where there are any, else 0. -/
theorem msg_apply (src : S4096x128.Idx → EReal) (mat : S4096x4096.Idx → EReal) (p : Fin 4096) (k : Fin 128) :
    val_main_v34 (F := Ideal) src mat (ix2 p k)
      = if 0 < 0 + ∑ s : Fin 4096, ind (mat (ix2 p s)) then
          Ideal.div (∑ s : Fin 4096, ind (mat (ix2 p s)) * src (ix2 s k)) (max (0 + ∑ s : Fin 4096, ind (mat (ix2 p s))) 1)
        else 0 := by
  rw [val_main_v34_apply, val_main_call2_v0_apply, val_main_v28_apply, val_main_v32_apply, val_main_v31_apply, val_main_v30_apply,
    val_main_v33_apply, val_main_cst_8_apply, val_main_v27_apply, val_main_cst_6_apply, val_main_v29_apply, val_main_cst_7_apply, acc_apply]
  have e1 : val_main_v26 (F := Ideal) mat (idx_main_call2_v0 (ix2 p k)) = 0 + ∑ s : Fin 4096, ind (mat (ix2 p s)) :=
    Eq.trans (congrArg (val_main_v26 (F := Ideal) mat) (funext fun a => Fin.ext (by
      match a with
      | ⟨0, _⟩ => rfl
      | ⟨1, _⟩ => rfl))) (cnt_apply mat p (0 : Fin 1))
  rw [e1]
  show Scalar.select (Ideal.cmp .ogt _ (Ideal.ofBits .f32 0x00000000#32))
    (Ideal.div _ (max _ (Ideal.ofBits .f32 0x3F800000#32))) (Ideal.ofBits .f32 0x00000000#32) = _
  rw [Ideal.ofBits_zero_f32, ofBits_one_f32, select_pos]

/-- The clamped message at (p, k). -/
theorem relu_apply (src : S4096x128.Idx → EReal) (mat : S4096x4096.Idx → EReal) (p : Fin 4096) (k : Fin 128) :
    val_main_v35 (F := Ideal) src mat (ix2 p k)
      = max (if 0 < 0 + ∑ s : Fin 4096, ind (mat (ix2 p s)) then
          Ideal.div (∑ s : Fin 4096, ind (mat (ix2 p s)) * src (ix2 s k)) (max (0 + ∑ s : Fin 4096, ind (mat (ix2 p s))) 1)
        else 0) 0 := by
  rw [val_main_v35_apply, msg_apply, val_main_call3_v0_apply, val_main_call3_cst_apply]
  show max _ (Ideal.ofBits .f32 0x00000000#32) = _
  rw [Ideal.ofBits_zero_f32]

/-- THE REFERENCE'S ENTRY (p, q): the form with the mean taken first (Spec.lean, rowRef). -/
theorem out_apply (tgt src : S4096x128.Idx → EReal) (mat : S4096x4096.Idx → EReal) (W : S128x128.Idx → EReal)
    (b : S128.Idx → EReal) (p : Fin 4096) (q : Fin 128) :
    val_main_v41 (F := Ideal) src tgt mat W b (ix2 p q)
      = rowRef (tgt (ix2 p q)) (b (ix1 q)) (fun s : Fin 4096 => ind (mat (ix2 p s)))
          (fun (s : Fin 4096) (k : Fin 128) => src (ix2 s k)) (fun k : Fin 128 => W (ix2 q k)) := by
  rw [val_main_v41_apply, val_main_v38_apply, val_main_v37_apply, val_main_v40_apply, val_main_v39_apply]
  unfold rowRef
  show tgt (ix2 p q) + _ + _ = _
  refine congrArg₂ (· + ·) (congrArg (tgt (ix2 p q) + ·) (Finset.sum_congr rfl fun k _ => ?_)) (congrArg b (funext fun a => Fin.ext ?_))
  · refine congrArg₂ (· * ·) ?_ ?_
    · refine Eq.trans (congrArg (val_main_v35 (F := Ideal) src mat) (funext fun a => Fin.ext ?_)) (relu_apply src mat p k)
      match a with
      | ⟨0, _⟩ => rfl
      | ⟨1, _⟩ => rfl
    · rw [val_main_v36_apply]
      refine congrArg W (funext fun a => Fin.ext ?_)
      match a with
      | ⟨0, _⟩ => rfl
      | ⟨1, _⟩ => rfl
  · match a with
    | ⟨0, _⟩ => rfl

end ToRegions

end Cert.ReferenceIdeal.Entry

end
-- ==== Proof.Finite.lean ====
/-
  From the precondition to real numbers.

  The precondition says of each float argument that every entry's absolute value is below +∞ (a conjunction over the
  arguments of "for all entries"). On the extended reals |x| < +∞ excludes exactly the two infinities, so every entry is a
  real number. Used for the two feature arrays and the two weight matrices, whose entries enter sums that a factor is
  distributed over.
-/
import proofs.«111334_g7610682049159_cont_9to1_m_1368_24_alg».proof.Proof.Gen.Pre_finite_inputs
import Idealize.ShloMosaic.PureOps.Ideal.Laws
import Idealize.ShloMosaic.Lib.ValueIdx
import Idealize.ShloMosaic.Lib.ReduceAll
import Idealize.ShloMosaic.Lib.Affine

noncomputable section

namespace Cert.Finite

open Idealize.ShloMosaic Idealize.ShloMosaic.ValueIdx Cert.Pre_finite_inputs

instance : Subsingleton S_.Idx := ⟨fun a b => funext fun d => d.elim0⟩

/-- The pattern of +∞ denotes the top of the extended reals. -/
theorem ofBits_inf_f32 : Ideal.ofBits .f32 0x7F800000#32 = ⊤ := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_inf_f32] at h
  have h' : BitVec.ofBool (decide (max x (-x) < ⊤)) = 1#1 := h
  induction x using EReal.rec with
  | bot => exact absurd h' (by simp)
  | top => exact absurd h' (by simp)
  | coe r => exact ⟨r, rfl⟩

/-- Under the precondition the feature arrays and the weight matrices hold real numbers. -/
theorem reals_of_pre (a0 a1 : FVec Ideal S4096x128 .f32) (a2 a3 : FVec Ideal S4096x4096 .f32) (a4 : FVec Ideal S128x128 .f32)
    (a5 : FVec Ideal S128 .f32) (a6 : FVec Ideal S128x128 .f32) (a7 : FVec Ideal S128 .f32)
    (h : fn (F := Ideal) a0 a1 a2 a3 a4 a5 a6 a7 = fun _ => 1#1) :
    (∀ i, ∃ r : ℝ, a0 i = (r : EReal)) ∧ (∀ i, ∃ r : ℝ, a1 i = (r : EReal))
      ∧ (∀ i, ∃ r : ℝ, a4 i = (r : EReal)) ∧ (∀ i, ∃ r : ℝ, a6 i = (r : EReal)) := by
  have h0 := congrFun h ix0
  dsimp only [fn, fn_part1, fn_part2] at h0
  obtain ⟨h1, -⟩ := IntOp.andi_eq_one.mp h0
  obtain ⟨h2, e6⟩ := IntOp.andi_eq_one.mp h1
  obtain ⟨h3, -⟩ := IntOp.andi_eq_one.mp h2
  obtain ⟨h4, e4⟩ := IntOp.andi_eq_one.mp h3
  obtain ⟨h5, -⟩ := IntOp.andi_eq_one.mp h4
  obtain ⟨h6, -⟩ := IntOp.andi_eq_one.mp h5
  obtain ⟨e0, e1⟩ := IntOp.andi_eq_one.mp h6
  refine ⟨fun i => ?_, fun i => ?_, fun i => ?_, fun i => ?_⟩
  · exact real_of_abs_lt (a0 i) (Host.reduce_andi_all _ _ _ _ ix0 e0 i)
  · exact real_of_abs_lt (a1 i) (Host.reduce_andi_all _ _ _ _ ix0 e1 i)
  · exact real_of_abs_lt (a4 i) (Host.reduce_andi_all _ _ _ _ ix0 e4 i)
  · exact real_of_abs_lt (a6 i) (Host.reduce_andi_all _ _ _ _ ix0 e6 i)

end Cert.Finite

end
-- ==== Proof.lean ====
/-
  Two-way mean message passing between 4096 "object" rows and 4096 "region" rows of 128 features: each row of one side
  receives the mean of the other side's rows that its row of a 4096 × 4096 selection matrix marks positive (zero when it
  marks none), clamped below at 0, mapped by a 128 × 128 weight matrix (applied transposed), and added with a bias to the
  row's own features.

  The kernel does both directions in one pass over sixteen blocks of 256 target rows. It differs from the reference in
  three ways, none of which changes the extended reals computed: it rounds the selection indicators and the source
  features to a narrower float format on the way into the matrix product (a change of format is the identity here); it
  keeps the rounded source features in scratch buffers filled at the first block and reused by the other fifteen; and it
  divides by the number of selected sources ONCE per row AFTER the clamp and the weight matrix instead of dividing every
  summed feature before them. The last step is the only arithmetic one: clamping at 0 and a linear map commute with a
  nonnegative real factor (Spec.lean), which needs the summed features and the weights finite — that is where the
  precondition (every float input finite) is used; the selection matrices' entries only enter through "is it positive".

  The kernel's two result arrays as whole-array functions of the arguments are in KernelValue.lean (over the generated
  frame run), the reference's two results entry by entry in RefEntry.lean (over the reference's run); here the two meet.
-/
import proofs.«111334_g7610682049159_cont_9to1_m_1368_24_alg».proof.Defs
import proofs.«111334_g7610682049159_cont_9to1_m_1368_24_alg».proof.Proof.Gen.Kernel
import proofs.«111334_g7610682049159_cont_9to1_m_1368_24_alg».proof.Proof.Gen.Kernel.Frame
import proofs.«111334_g7610682049159_cont_9to1_m_1368_24_alg».proof.Proof.Gen.KernelIdeal
import proofs.«111334_g7610682049159_cont_9to1_m_1368_24_alg».proof.Proof.Gen.KernelIdeal.Frame
import proofs.«111334_g7610682049159_cont_9to1_m_1368_24_alg».proof.Proof.Gen.ReferenceIdeal
import proofs.«111334_g7610682049159_cont_9to1_m_1368_24_alg».proof.Proof.Gen.Pre_finite_inputs
import proofs.«111334_g7610682049159_cont_9to1_m_1368_24_alg».proof.Proof.KernelValue
import proofs.«111334_g7610682049159_cont_9to1_m_1368_24_alg».proof.Proof.RefEntry
import proofs.«111334_g7610682049159_cont_9to1_m_1368_24_alg».proof.Proof.Finite
import Idealize.ShloMosaic.Adequacy
import Idealize.ShloMosaic.Init

noncomputable section

namespace Cert.Proof

open Idealize.ShloMosaic Idealize.ShloMosaic.ValueIdx Idealize.SL.Sem Cert.MeanMsg

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- Both programs end with the same two arrays: entry (p, q) of each of the reference's results is the form with the mean
    taken first, of each of the kernel's the form with the factor applied last, and the two forms agree where the
    features and the weights are real numbers. -/
theorem algebraic : Cert.algebraic_KernelIdeal_ReferenceIdeal := by
  intro m ρ m' ρ' hpre hagree
  refine ⟨_, _, Cert.KernelIdeal.Result.run m ρ, ?_⟩
  refine (θ_run Cert.ReferenceIdeal.defs _ _).mono (fun _ h c => ?_) (Cert.ReferenceIdeal.ValueP.run (F := Ideal) m' ρ')
  obtain ⟨a0, a1, a2, a3, a4, a5, a6, a7⟩ := hagree c
  obtain ⟨f0, f1, f4, f6⟩ := Cert.Finite.reals_of_pre _ _ _ _ _ _ _ _ (hpre c)
  refine ⟨(h c).1.trans ?_, (h c).2.1.trans ?_, (h c).2.2⟩
  · rw [Cert.ReferenceIdeal.ReadP.val_main_v20_eq, a0, a1, a2, a4, a5]
    funext i
    obtain ⟨p, q, rfl⟩ : ∃ (p : Fin 4096) (q : Fin 128), i = ix2 p q := ⟨i 0, i 1, eq_ix2 i⟩
    rw [Cert.ReferenceIdeal.Entry.ToObjects.out_apply, outArr_ix2]
    exact rowRef_eq _ _ _ _ _ (fun s => ind_real _) (fun s k => f1 (ix2 s k)) (fun k => f4 (ix2 q k))
  · rw [Cert.ReferenceIdeal.ReadP.val_main_v41_eq, a0, a1, a3, a6, a7]
    funext i
    obtain ⟨p, q, rfl⟩ : ∃ (p : Fin 4096) (q : Fin 128), i = ix2 p q := ⟨i 0, i 1, eq_ix2 i⟩
    rw [Cert.ReferenceIdeal.Entry.ToRegions.out_apply, outArr_ix2]
    exact rowRef_eq _ _ _ _ _ (fun s => ind_real _) (fun s k => f0 (ix2 s k)) (fun k => f6 (ix2 q k))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
